-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x64 : Shape := ⟨3, ![32, 4096, 64]⟩
abbrev S32x8x64 : Shape := ⟨3, ![32, 8, 64]⟩
abbrev S_ : Shape := ⟨0, ![]⟩

class Facts : Prop where
  bcast_S_S32x4096x64 : S_.BroadcastsInDim S32x4096x64 (![] : Fin 0 → Fin S32x4096x64.rank)
  reducesTo_S32x4096x64_S_d0_1_2 : S32x4096x64.ReducesTo [0, 1, 2] S_
  h_S_ : 0 < S_.numel
  bcast_S_S32x8x64 : S_.BroadcastsInDim S32x8x64 (![] : Fin 0 → Fin S32x8x64.rank)
  reducesTo_S32x8x64_S_d0_1_2 : S32x8x64.ReducesTo [0, 1, 2] S_

variable [Facts]

def fn {F : FTy → Type} [FloatOps F] (main_arg0 : FVec F S32x4096x64 .f32) (main_arg1 : FVec F S32x4096x64 .f32) (main_arg2 : FVec F S32x8x64 .f32) : IVec S_ 1 :=
  let main_v0 : FVec F S32x4096x64 .f32 := Host.absf main_arg0
  let main_cst : FVec F S_ .f32 := constant S_ .f32 0x7F800000#32
  let main_v1 : FVec F S32x4096x64 .f32 := broadcastInDim S32x4096x64 ![] bcast_S_S32x4096x64 main_cst
  let main_v2 : IVec S32x4096x64 1 := cmpf .olt main_v0 main_v1
  let main_c : IVec S_ 1 := constantI S_ 1 1#1
  let main_v3 : IVec S_ 1 := (fun x v => Host.reduce IntOp.andi x v reducesTo_S32x4096x64_S_d0_1_2 h_S_) main_v2 main_c
  let main_v4 : FVec F S32x4096x64 .f32 := Host.absf main_arg1
  let main_cst_0 : FVec F S_ .f32 := constant S_ .f32 0x7F800000#32
  let main_v5 : FVec F S32x4096x64 .f32 := broadcastInDim S32x4096x64 ![] bcast_S_S32x4096x64 main_cst_0
  let main_v6 : IVec S32x4096x64 1 := cmpf .olt main_v4 main_v5
  let main_c_1 : IVec S_ 1 := constantI S_ 1 1#1
  let main_v7 : IVec S_ 1 := (fun x v => Host.reduce IntOp.andi x v reducesTo_S32x4096x64_S_d0_1_2 h_S_) main_v6 main_c_1
  let main_v8 : IVec S_ 1 := andi main_v3 main_v7
  let main_v9 : FVec F S32x8x64 .f32 := Host.absf main_arg2
  let main_cst_2 : FVec F S_ .f32 := constant S_ .f32 0x7F800000#32
  let main_v10 : FVec F S32x8x64 .f32 := broadcastInDim S32x8x64 ![] bcast_S_S32x8x64 main_cst_2
  let main_v11 : IVec S32x8x64 1 := cmpf .olt main_v9 main_v10
  let main_c_3 : IVec S_ 1 := constantI S_ 1 1#1
  let main_v12 : IVec S_ 1 := (fun x v => Host.reduce IntOp.andi x v reducesTo_S32x8x64_S_d0_1_2 h_S_) main_v11 main_c_3
  let main_v13 : IVec S_ 1 := andi main_v8 main_v12
  main_v13
-- ==== Kernel.lean ====
abbrev S32x4096x64 : Shape := ⟨3, ![32, 4096, 64]⟩
abbrev S32x8x64 : Shape := ⟨3, ![32, 8, 64]⟩
abbrev S1x4096x64 : Shape := ⟨3, ![1, 4096, 64]⟩
abbrev S1x8x64 : Shape := ⟨3, ![1, 8, 64]⟩
abbrev S4096x64 : Shape := ⟨2, ![4096, 64]⟩
abbrev S8x64 : Shape := ⟨2, ![8, 64]⟩
abbrev S64x8 : Shape := ⟨2, ![64, 8]⟩
abbrev S4096x8 : Shape := ⟨2, ![4096, 8]⟩
abbrev S4096 : Shape := ⟨1, ![4096]⟩
abbrev S4096x1 : Shape := ⟨2, ![4096, 1]⟩
abbrev S8 : Shape := ⟨1, ![8]⟩
abbrev S1x8 : Shape := ⟨2, ![1, 8]⟩
abbrev S8x4096 : Shape := ⟨2, ![8, 4096]⟩
abbrev S8x1 : Shape := ⟨2, ![8, 1]⟩

abbrev nBuf : Space → Nat
  | .hbm => 4
  | .vmem => 8
  | .smem => 0
  | _ => 0

abbrev bufTy : (tb : Table) → Fin (tcTables nBuf tb) → BufTy
  | .hbm, ⟨0, _⟩ => ⟨S32x4096x64, .f32⟩
  | .hbm, ⟨1, _⟩ => ⟨S32x4096x64, .f32⟩
  | .hbm, ⟨2, _⟩ => ⟨S32x8x64, .f32⟩
  | .hbm, ⟨3, _⟩ => ⟨S32x8x64, .f32⟩
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x8x64, .f32⟩
  | .local _ .vmem, ⟨5, _⟩ => ⟨S1x8x64, .f32⟩
  | .local _ .vmem, ⟨6, _⟩ => ⟨S1x8x64, .f32⟩
  | .local _ .vmem, ⟨7, _⟩ => ⟨S1x8x64, .f32⟩
  | _, _ => ⟨S32x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  transposes_S8x64_p1_0_S64x8 : S8x64.Transposes [1, 0] S64x8
  reduces_S4096x8_S4096 : S4096x8.Reduces [1] S4096
  shapeCasts_S4096_S4096x1 : S4096.ShapeCasts S4096x1
  broadcasts_S4096x1_S4096x8 : S4096x1.Broadcasts S4096x8
  reduces_S4096x8_S8 : S4096x8.Reduces [0] S8
  shapeCasts_S8_S1x8 : S8.ShapeCasts S1x8
  transposes_S4096x8_p1_0_S8x4096 : S4096x8.Transposes [1, 0] S8x4096
  transposes_S1x8_p1_0_S8x1 : S1x8.Transposes [1, 0] S8x1
  broadcasts_S8x1_S8x64 : S8x1.Broadcasts S8x64
  shapeCasts_S8x64_S1x8x64 : S8x64.ShapeCasts S1x8x64
  dot_S4096x64_S64x8_S4096x8_1_0_0_1_n_n_wf : DotDims.WF S4096x64 S64x8 S4096x8 [1] [0] [0] [1] [] []
  dot_S8x4096_S4096x64_S8x64_1_0_0_1_n_n_wf : DotDims.WF S8x4096 S4096x64 S8x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S32x4096x64.size a
  hwx0_0 : ∀ i : grid0.Coords, EltTy.bits .f32 = 32 ∨ (Rect.block (s := S32x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S32x4096x64.size a
  hwx0_1 : ∀ i : grid0.Coords, EltTy.bits .f32 = 32 ∨ (Rect.block (s := S32x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64.size a ≤ S32x8x64.size a
  hwx0_2 : ∀ i : grid0.Coords, EltTy.bits .f32 = 32 ∨ (Rect.block (s := S32x8x64) S1x8x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64.size a ≤ S32x8x64.size a
  hwx0_3 : ∀ i : grid0.Coords, EltTy.bits .f32 = 32 ∨ (Rect.block (s := S32x8x64) S1x8x64.size (cc0_transform_3 i) (hinb0_3 i)).WholeWords (EltTy.packing .f32)

variable [Facts₀]

def dot_S4096x64_S64x8_S4096x8_1_0_0_1_n_n : DotDims S4096x64 S64x8 S4096x8 where
  lhsContracting := [1]
  rhsContracting := [0]
  lhsNonContracting := [0]
  rhsNonContracting := [1]
  lhsBatch := []
  rhsBatch := []
  wf := dot_S4096x64_S64x8_S4096x8_1_0_0_1_n_n_wf
def dot_S8x4096_S4096x64_S8x64_1_0_0_1_n_n : DotDims S8x4096 S4096x64 S8x64 where
  lhsContracting := [1]
  rhsContracting := [0]
  lhsNonContracting := [0]
  rhsNonContracting := [1]
  lhsBatch := []
  rhsBatch := []
  wf := dot_S8x4096_S4096x64_S8x64_1_0_0_1_n_n_wf

abbrev win0_0 : Pipeline.Window sig grid0 :=
  Pipeline.Window.ofSpec (Memref.whole main_arg0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x8x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096x64 : Shape := ⟨3, ![32, 4096, 64]⟩
abbrev S32x8x64 : Shape := ⟨3, ![32, 8, 64]⟩
abbrev S32x4096x8 : Shape := ⟨3, ![32, 4096, 8]⟩
abbrev S_ : Shape := ⟨0, ![]⟩
abbrev S32x4096 : Shape := ⟨2, ![32, 4096]⟩
abbrev S32x4096x1 : Shape := ⟨3, ![32, 4096, 1]⟩
abbrev S32x8 : Shape := ⟨2, ![32, 8]⟩
abbrev S32x1x8 : Shape := ⟨3, ![32, 1, 8]⟩

abbrev nBuf : Space → Nat
  | .hbm => 31
  | .vmem => 0
  | .smem => 0
  | _ => 0

abbrev bufTy : (tb : Table) → Fin (tcTables nBuf tb) → BufTy
  | .hbm, ⟨0, _⟩ => ⟨S32x4096x64, .f32⟩
  | .hbm, ⟨1, _⟩ => ⟨S32x4096x64, .f32⟩
  | .hbm, ⟨2, _⟩ => ⟨S32x8x64, .f32⟩
  | .hbm, ⟨3, _⟩ => ⟨S32x4096x8, .f32⟩
  | .hbm, ⟨4, _⟩ => ⟨S_, .f32⟩
  | .hbm, ⟨5, _⟩ => ⟨S_, .f32⟩
  | .hbm, ⟨6, _⟩ => ⟨S32x4096x8, .f32⟩
  | .hbm, ⟨7, _⟩ => ⟨S32x4096x8, .f32⟩
  | .hbm, ⟨8, _⟩ => ⟨S_, .f32⟩
  | .hbm, ⟨9, _⟩ => ⟨S32x4096, .f32⟩
  | .hbm, ⟨10, _⟩ => ⟨S_, .f32⟩
  | .hbm, ⟨11, _⟩ => ⟨S32x4096, .f32⟩
  | .hbm, ⟨12, _⟩ => ⟨S32x4096, .f32⟩
  | .hbm, ⟨13, _⟩ => ⟨S32x4096x1, .f32⟩
  | .hbm, ⟨14, _⟩ => ⟨S32x4096x8, .f32⟩
  | .hbm, ⟨15, _⟩ => ⟨S32x4096x8, .f32⟩
  | .hbm, ⟨16, _⟩ => ⟨S32x4096x8, .f32⟩
  | .hbm, ⟨17, _⟩ => ⟨S_, .f32⟩
  | .hbm, ⟨18, _⟩ => ⟨S32x4096, .f32⟩
  | .hbm, ⟨19, _⟩ => ⟨S32x4096x1, .f32⟩
  | .hbm, ⟨20, _⟩ => ⟨S32x4096x8, .f32⟩
  | .hbm, ⟨21, _⟩ => ⟨S32x4096x8, .f32⟩
  | .hbm, ⟨22, _⟩ => ⟨S_, .f32⟩
  | .hbm, ⟨23, _⟩ => ⟨S32x4096x8, .f32⟩
  | .hbm, ⟨24, _⟩ => ⟨S32x4096x8, .f32⟩
  | .hbm, ⟨25, _⟩ => ⟨S_, .f32⟩
  | .hbm, ⟨26, _⟩ => ⟨S32x8, .f32⟩
  | .hbm, ⟨27, _⟩ => ⟨S32x1x8, .f32⟩
  | .hbm, ⟨28, _⟩ => ⟨S32x4096x8, .f32⟩
  | .hbm, ⟨29, _⟩ => ⟨S32x4096x8, .f32⟩
  | .hbm, ⟨30, _⟩ => ⟨S32x8x64, .f32⟩
  | _, _ => ⟨S32x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S32x4096x8 : S_.BroadcastsInDim S32x4096x8 (![] : Fin 0 → Fin S32x4096x8.rank)
  reducesTo_S32x4096x8_S32x4096_d2 : S32x4096x8.ReducesTo [2] S32x4096
  h_S_ : 0 < S_.numel
  bcast_S_S32x4096 : S_.BroadcastsInDim S32x4096 (![] : Fin 0 → Fin S32x4096.rank)
  bcast_S32x4096_S32x4096x1_0_1 : S32x4096.BroadcastsInDim S32x4096x1 (![0, 1] : Fin 2 → Fin S32x4096x1.rank)
  bcast_S32x4096x1_S32x4096x8_0_1_2 : S32x4096x1.BroadcastsInDim S32x4096x8 (![0, 1, 2] : Fin 3 → Fin S32x4096x8.rank)
  reducesTo_S32x4096x8_S32x8_d1 : S32x4096x8.ReducesTo [1] S32x8
  bcast_S32x8_S32x1x8_0_2 : S32x8.BroadcastsInDim S32x1x8 (![0, 2] : Fin 2 → Fin S32x1x8.rank)
  bcast_S32x1x8_S32x4096x8_0_1_2 : S32x1x8.BroadcastsInDim S32x4096x8 (![0, 1, 2] : Fin 3 → Fin S32x4096x8.rank)
  dot_S32x4096x64_S32x8x64_S32x4096x8_2_2_1_1_0_0_wf : DotDims.WF S32x4096x64 S32x8x64 S32x4096x8 [2] [2] [1] [1] [0] [0]
  dot_S32x4096x8_S32x4096x64_S32x8x64_1_1_2_2_0_0_wf : DotDims.WF S32x4096x8 S32x4096x64 S32x8x64 [1] [1] [2] [2] [0] [0]

variable [Facts₀]

def dot_S32x4096x64_S32x8x64_S32x4096x8_2_2_1_1_0_0 : DotDims S32x4096x64 S32x8x64 S32x4096x8 where
  lhsContracting := [2]
  rhsContracting := [2]
  lhsNonContracting := [1]
  rhsNonContracting := [1]
  lhsBatch := [0]
  rhsBatch := [0]
  wf := dot_S32x4096x64_S32x8x64_S32x4096x8_2_2_1_1_0_0_wf
def dot_S32x4096x8_S32x4096x64_S32x8x64_1_1_2_2_0_0 : DotDims S32x4096x8 S32x4096x64 S32x8x64 where
  lhsContracting := [1]
  rhsContracting := [1]
  lhsNonContracting := [2]
  rhsNonContracting := [2]
  lhsBatch := [0]
  rhsBatch := [0]
  wf := dot_S32x4096x8_S32x4096x64_S32x8x64_1_1_2_2_0_0_wf

class Facts : Prop extends Facts₀ where

variable [Facts]
-- ==== Proof.LibSoftmax.lean ====
/-
  Real-valued extended reals and the softmax.

  An extended real is FINITE when it is neither infinity.  The finite ones are closed under the exact
  operations a normalised attention layer uses (sum, product, quotient by a nonzero, square root of a
  nonnegative, exponential, maximum), and on them the usual laws of the reals hold.  Two such laws are
  proved here:

  * a common factor moves out of a dot product, ∑ (q d · c) · k d = (∑ q d · k d) · c;
  * the softmax-weighted average computed tile by tile with a running shift — each tile rescaling the
    accumulated numerator and denominator by exp (old shift − new shift) — equals the one-shot softmax
    average with ANY finite shift, because exp (a − b) · exp (b − c) = exp (a − c) and the common factor
    exp (−shift) cancels between numerator and denominator.
-/
import Mathlib
import Idealize.ShloMosaic.PureOps.Ideal

open Idealize.ShloMosaic

namespace Cert.Layer.Softmax

/-- An extended real that is a real number: neither infinity. -/
def IsFin (x : EReal) : Prop := x ≠ ⊥ ∧ x ≠ ⊤

theorem isFin_coe (r : ℝ) : IsFin (r : EReal) := ⟨EReal.coe_ne_bot r, EReal.coe_ne_top r⟩

theorem IsFin.exists_coe {x : EReal} (h : IsFin x) : ∃ r : ℝ, x = (r : EReal) := by
  induction x using EReal.rec with
  | bot => exact absurd rfl h.1
  | top => exact absurd rfl h.2
  | coe r => exact ⟨r, rfl⟩

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isFin_zero : IsFin (0 : EReal) := ⟨EReal.zero_ne_bot, EReal.zero_ne_top⟩

theorem IsFin.add {x y : EReal} (hx : IsFin x) (hy : IsFin y) : IsFin (x + y) := by
  obtain ⟨a, rfl⟩ := hx.exists_coe
  obtain ⟨b, rfl⟩ := hy.exists_coe
  rw [← EReal.coe_add]; exact isFin_coe _

theorem IsFin.sub {x y : EReal} (hx : IsFin x) (hy : IsFin y) : IsFin (x - y) := by
  obtain ⟨a, rfl⟩ := hx.exists_coe
  obtain ⟨b, rfl⟩ := hy.exists_coe
  rw [← EReal.coe_sub]; exact isFin_coe _

theorem IsFin.mul {x y : EReal} (hx : IsFin x) (hy : IsFin y) : IsFin (x * y) := by
  obtain ⟨a, rfl⟩ := hx.exists_coe
  obtain ⟨b, rfl⟩ := hy.exists_coe
  rw [← EReal.coe_mul]; exact isFin_coe _

theorem IsFin.max {x y : EReal} (hx : IsFin x) (hy : IsFin y) : IsFin (max x y) := by
  rcases max_choice x y with h | h <;> rw [h] <;> assumption

theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h _ (Finset.mem_insert_self _ _)).add (ih (fun i hi => h i (Finset.mem_insert_of_mem hi)))

/-- A maximum folded from the bottom over a nonempty finite family of finite values is finite. -/
theorem isFin_fold_max {ι : Type*} [Fintype ι] [Nonempty ι] (f : ι → EReal) (h : ∀ i, IsFin (f i)) :
    IsFin ((Finset.univ : Finset ι).fold max (⊥ : EReal) f) := by
  constructor
  · intro hbot
    have hle : f (Classical.arbitrary ι) ≤ (Finset.univ : Finset ι).fold max (⊥ : EReal) f :=
      (Finset.le_fold_max _).mpr (Or.inr ⟨_, Finset.mem_univ _, le_rfl⟩)
    rw [hbot] at hle
    exact (h _).1 (le_bot_iff.mp hle)
  · have hlt : (Finset.univ : Finset ι).fold max (⊥ : EReal) f < ⊤ :=
      (Finset.fold_max_lt _).mpr ⟨bot_lt_top, fun i _ => lt_top_iff_ne_top.mpr (h i).2⟩
    exact hlt.ne

theorem IsFin.exp {x : EReal} (hx : IsFin x) : IsFin (Ideal.exp x) := by
  obtain ⟨a, rfl⟩ := hx.exists_coe
  rw [Ideal.exp_coe]; exact isFin_coe _

theorem exp_pos_of_isFin {x : EReal} (hx : IsFin x) : 0 < Ideal.exp x := by
  obtain ⟨a, rfl⟩ := hx.exists_coe
  rw [Ideal.exp_coe]; exact EReal.coe_pos.mpr (Real.exp_pos a)

/-- The quotient of finite values by a nonzero finite value is finite. -/
theorem IsFin.div {x y : EReal} (hx : IsFin x) (hy : IsFin y) (h0 : y ≠ 0) : IsFin (Ideal.div x y) := by
  obtain ⟨a, rfl⟩ := hx.exists_coe
  obtain ⟨b, rfl⟩ := hy.exists_coe
  have hb : b ≠ 0 := by
    intro hb; apply h0; rw [hb]; rfl
  rw [Ideal.div_coe hb, ← EReal.coe_mul]; exact isFin_coe _

theorem IsFin.sqrt {x : EReal} (hx : IsFin x) (h0 : 0 ≤ x) : IsFin (Ideal.sqrt x) := by
  obtain ⟨a, rfl⟩ := hx.exists_coe
  have ha : 0 ≤ a := EReal.coe_nonneg.mp h0
  rw [Ideal.sqrt_coe, if_neg (not_lt.mpr ha)]; exact isFin_coe _

theorem sqrt_pos_of_pos {x : EReal} (hx : IsFin x) (h0 : 0 < x) : 0 < Ideal.sqrt x := by
  obtain ⟨a, rfl⟩ := hx.exists_coe
  have ha : 0 < a := EReal.coe_pos.mp h0
  rw [Ideal.sqrt_coe, if_neg (not_lt.mpr ha.le)]
  exact EReal.coe_pos.mpr (Real.sqrt_pos.mpr ha)

theorem mul_self_nonneg_of_isFin {x : EReal} (hx : IsFin x) : 0 ≤ x * x := by
  obtain ⟨a, rfl⟩ := hx.exists_coe
  rw [← EReal.coe_mul]; exact EReal.coe_nonneg.mpr (mul_self_nonneg a)

/-- A sum of nonnegative extended reals is nonnegative. -/
theorem sum_nonneg' {ι : Type*} (s : Finset ι) (f : ι → EReal) (h : ∀ i ∈ s, 0 ≤ f i) : 0 ≤ ∑ i ∈ s, f i :=
  Finset.sum_nonneg h

/-- A sum over a nonempty finite type of positive finite values is positive (hence nonzero). -/
theorem sum_pos' {ι : Type*} [Fintype ι] [Nonempty ι] (f : ι → EReal) (h : ∀ i, 0 < f i) : 0 < ∑ i, f i := by
  classical
  rw [← Finset.add_sum_erase Finset.univ f (Finset.mem_univ (Classical.arbitrary ι))]
  exact add_pos_of_pos_of_nonneg (h _) (Finset.sum_nonneg (fun i _ => (h i).le))

/-- A common finite factor moves out of a dot product of finite vectors. -/
theorem sum_mul_scale {ι : Type*} [Fintype ι] (q k : ι → EReal) (c : EReal)
    (hq : ∀ d, IsFin (q d)) (hk : ∀ d, IsFin (k d)) (hc : IsFin c) :
    ∑ d, (q d * c) * k d = (∑ d, q d * k d) * c := by
  choose q' hq' using fun d => (hq d).exists_coe
  choose k' hk' using fun d => (hk d).exists_coe
  obtain ⟨c', rfl⟩ := hc.exists_coe
  simp only [hq', hk', ← EReal.coe_mul, ← coe_sum]
  congr 1
  rw [Finset.sum_mul]
  exact Finset.sum_congr rfl (fun d _ => by ring)

/-- One tile of the running denominator, over the reals: rescaling `P / exp m` by `exp (m - m')` and adding
    the new tile's shifted exponentials gives `(P + new tile) / exp m'`. -/
private theorem den_step {ι : Type*} [Fintype ι] (f : ι → ℝ) (m m' P : ℝ) :
    Ideal.exp ((m : EReal) - (m' : EReal)) * ((P / Real.exp m : ℝ) : EReal)
        + ∑ j, Ideal.exp ((f j : EReal) - (m' : EReal))
      = (((P + ∑ j, Real.exp (f j)) / Real.exp m' : ℝ) : EReal) := by
  simp only [← EReal.coe_sub, Ideal.exp_coe, ← coe_sum, ← EReal.coe_mul, ← EReal.coe_add]
  congr 1
  simp only [Real.exp_sub]
  rw [← Finset.sum_div]
  have h1 := Real.exp_ne_zero m
  have h2 := Real.exp_ne_zero m'
  field_simp

/-- One tile of the running numerator, over the reals. -/
private theorem num_step {ι : Type*} [Fintype ι] (f g : ι → ℝ) (m m' P : ℝ) :
    Ideal.exp ((m : EReal) - (m' : EReal)) * ((P / Real.exp m : ℝ) : EReal)
        + ∑ j, Ideal.exp ((f j : EReal) - (m' : EReal)) * (g j : EReal)
      = (((P + ∑ j, Real.exp (f j) * g j) / Real.exp m' : ℝ) : EReal) := by
  simp only [← EReal.coe_sub, Ideal.exp_coe, ← coe_sum, ← EReal.coe_mul, ← EReal.coe_add]
  congr 1
  simp only [Real.exp_sub]
  have hs : ∑ j, Real.exp (f j) / Real.exp m' * g j = (∑ j, Real.exp (f j) * g j) / Real.exp m' := by
    rw [Finset.sum_div]
    exact Finset.sum_congr rfl (fun j _ => by ring)
  rw [hs]
  have h1 := Real.exp_ne_zero m
  have h2 := Real.exp_ne_zero m'
  field_simp

/-- The cancellation of the common shift factors, over the reals. -/
private theorem real_final {ι : Type*} [Fintype ι] [Nonempty ι] (S V : Fin 4 → ι → ℝ) (μ4 μ : ℝ) :
    (∑ k, ∑ j, Real.exp (S k j) * V k j) / Real.exp μ4
        * (1 / ((∑ k, ∑ j, Real.exp (S k j)) / Real.exp μ4))
      = ∑ k, ∑ j, Real.exp (S k j - μ) * (1 / ∑ k', ∑ j', Real.exp (S k' j' - μ)) * V k j := by
  have hT : 0 < ∑ k, ∑ j, Real.exp (S k j) :=
    Finset.sum_pos (fun k _ => Finset.sum_pos (fun j _ => Real.exp_pos _) Finset.univ_nonempty)
      Finset.univ_nonempty
  have hZ : ∑ k', ∑ j', Real.exp (S k' j' - μ) = (∑ k, ∑ j, Real.exp (S k j)) / Real.exp μ := by
    simp only [Real.exp_sub, Finset.sum_div]
  rw [hZ]
  have hterm : ∀ k j, Real.exp (S k j - μ) * (1 / ((∑ k, ∑ j, Real.exp (S k j)) / Real.exp μ)) * V k j
      = Real.exp (S k j) * V k j * (1 / (∑ k, ∑ j, Real.exp (S k j))) := by
    intro k j
    rw [Real.exp_sub]
    have h1 := Real.exp_ne_zero μ
    have h2 := hT.ne'
    field_simp
  simp only [hterm, ← Finset.sum_mul]
  have h1 := Real.exp_ne_zero μ4
  have h2 := hT.ne'
  field_simp

/-- THE TILED SOFTMAX AVERAGE.  Scores `s` and values `v` over four tiles of a finite nonempty index type;
    `m1 … m4` the shifts after each tile and `M` the one-shot shift, all finite (their values do not matter);
    `α·`, `l·`, `a·` the rescaling factors, denominators and numerators exactly as the tiled recurrence
    computes them, started from the shift `⊥`, denominator `0` and numerator `0`.  Then the tiled quotient is
    the one-shot weighted sum over all entries (indexed by any type `α` in bijection with tile × position). -/
theorem tiled_softmax_avg {ι α : Type*} [Fintype ι] [Nonempty ι] [Fintype α] (e : α ≃ Fin 4 × ι)
    (s v : Fin 4 → ι → EReal) (hs : ∀ k j, IsFin (s k j)) (hv : ∀ k j, IsFin (v k j))
    (m1 m2 m3 m4 M : EReal) (h1 : IsFin m1) (h2 : IsFin m2) (h3 : IsFin m3) (h4 : IsFin m4) (hM : IsFin M)
    (α0 α1 α2 α3 l1 l2 l3 l4 a1 a2 a3 a4 : EReal)
    (hα0 : α0 = Ideal.exp (⊥ - m1))
    (hl1 : l1 = α0 * 0 + ∑ j, Ideal.exp (s 0 j - m1))
    (ha1 : a1 = α0 * 0 + ∑ j, Ideal.exp (s 0 j - m1) * v 0 j)
    (hα1 : α1 = Ideal.exp (m1 - m2))
    (hl2 : l2 = α1 * l1 + ∑ j, Ideal.exp (s 1 j - m2))
    (ha2 : a2 = α1 * a1 + ∑ j, Ideal.exp (s 1 j - m2) * v 1 j)
    (hα2 : α2 = Ideal.exp (m2 - m3))
    (hl3 : l3 = α2 * l2 + ∑ j, Ideal.exp (s 2 j - m3))
    (ha3 : a3 = α2 * a2 + ∑ j, Ideal.exp (s 2 j - m3) * v 2 j)
    (hα3 : α3 = Ideal.exp (m3 - m4))
    (hl4 : l4 = α3 * l3 + ∑ j, Ideal.exp (s 3 j - m4))
    (ha4 : a4 = α3 * a3 + ∑ j, Ideal.exp (s 3 j - m4) * v 3 j) :
    Ideal.div a4 l4
      = ∑ x : α, Ideal.div (Ideal.exp (s (e x).1 (e x).2 - M)) (∑ y : α, Ideal.exp (s (e y).1 (e y).2 - M))
          * v (e x).1 (e x).2 := by
  classical
  -- real witnesses of every finite quantity
  choose S hS using fun k j => (hs k j).exists_coe
  choose V hV using fun k j => (hv k j).exists_coe
  obtain ⟨μ1, rfl⟩ := h1.exists_coe
  obtain ⟨μ2, rfl⟩ := h2.exists_coe
  obtain ⟨μ3, rfl⟩ := h3.exists_coe
  obtain ⟨μ4, rfl⟩ := h4.exists_coe
  obtain ⟨μ, rfl⟩ := hM.exists_coe
  -- the first rescaling factor is exp ⊥ = 0
  have hα0' : α0 = 0 := by rw [hα0, EReal.bot_sub, Ideal.exp_bot]
  -- the running denominators: after tile k, (sum of the exponentials so far) / exp (shift k)
  have hL1 : l1 = (((∑ j, Real.exp (S 0 j)) / Real.exp μ1 : ℝ) : EReal) := by
    rw [hl1, hα0', zero_mul, zero_add]
    simp only [hS, ← EReal.coe_sub, Ideal.exp_coe, ← coe_sum]
    congr 1
    simp only [Real.exp_sub, Finset.sum_div]
  have hL2 : l2 = ((((∑ j, Real.exp (S 0 j)) + ∑ j, Real.exp (S 1 j)) / Real.exp μ2 : ℝ) : EReal) := by
    rw [hl2, hα1, hL1]; simp only [hS]; exact den_step (S 1) μ1 μ2 _
  have hL3 : l3 = (((((∑ j, Real.exp (S 0 j)) + ∑ j, Real.exp (S 1 j)) + ∑ j, Real.exp (S 2 j))
      / Real.exp μ3 : ℝ) : EReal) := by
    rw [hl3, hα2, hL2]; simp only [hS]; exact den_step (S 2) μ2 μ3 _
  have hL4 : l4 = ((((((∑ j, Real.exp (S 0 j)) + ∑ j, Real.exp (S 1 j)) + ∑ j, Real.exp (S 2 j))
      + ∑ j, Real.exp (S 3 j)) / Real.exp μ4 : ℝ) : EReal) := by
    rw [hl4, hα3, hL3]; simp only [hS]; exact den_step (S 3) μ3 μ4 _
  -- the running numerators
  have hA1 : a1 = (((∑ j, Real.exp (S 0 j) * V 0 j) / Real.exp μ1 : ℝ) : EReal) := by
    rw [ha1, hα0', zero_mul, zero_add]
    simp only [hS, hV, ← EReal.coe_sub, Ideal.exp_coe, ← EReal.coe_mul, ← coe_sum]
    congr 1
    simp only [Real.exp_sub]
    rw [Finset.sum_div]
    exact Finset.sum_congr rfl (fun j _ => by ring)
  have hA2 : a2 = ((((∑ j, Real.exp (S 0 j) * V 0 j) + ∑ j, Real.exp (S 1 j) * V 1 j)
      / Real.exp μ2 : ℝ) : EReal) := by
    rw [ha2, hα1, hA1]; simp only [hS, hV]; exact num_step (S 1) (V 1) μ1 μ2 _
  have hA3 : a3 = (((((∑ j, Real.exp (S 0 j) * V 0 j) + ∑ j, Real.exp (S 1 j) * V 1 j)
      + ∑ j, Real.exp (S 2 j) * V 2 j) / Real.exp μ3 : ℝ) : EReal) := by
    rw [ha3, hα2, hA2]; simp only [hS, hV]; exact num_step (S 2) (V 2) μ2 μ3 _
  have hA4 : a4 = ((((((∑ j, Real.exp (S 0 j) * V 0 j) + ∑ j, Real.exp (S 1 j) * V 1 j)
      + ∑ j, Real.exp (S 2 j) * V 2 j) + ∑ j, Real.exp (S 3 j) * V 3 j) / Real.exp μ4 : ℝ) : EReal) := by
    rw [ha4, hα3, hA3]; simp only [hS, hV]; exact num_step (S 3) (V 3) μ3 μ4 _
  -- sums over α are sums over tile × position
  have hsumα : ∀ g : Fin 4 → ι → ℝ, ∑ x : α, g (e x).1 (e x).2 = ∑ k, ∑ j, g k j := fun g =>
    (Equiv.sum_comp e (fun p : Fin 4 × ι => g p.1 p.2)).trans (Fintype.sum_prod_type _)
  have hZα : ∑ y : α, Real.exp (S (e y).1 (e y).2 - μ) = ∑ k, ∑ j, Real.exp (S k j - μ) :=
    hsumα (fun k j => Real.exp (S k j - μ))
  have hZpos : 0 < ∑ k : Fin 4, ∑ j, Real.exp (S k j - μ) :=
    Finset.sum_pos (fun k _ => Finset.sum_pos (fun j _ => Real.exp_pos _) Finset.univ_nonempty)
      Finset.univ_nonempty
  have hTpos : 0 < ∑ k : Fin 4, ∑ j, Real.exp (S k j) :=
    Finset.sum_pos (fun k _ => Finset.sum_pos (fun j _ => Real.exp_pos _) Finset.univ_nonempty)
      Finset.univ_nonempty
  -- the one-shot denominator is a positive real
  have hden : (∑ y : α, Ideal.exp (s (e y).1 (e y).2 - (μ : EReal)))
      = ((∑ k, ∑ j, Real.exp (S k j - μ) : ℝ) : EReal) := by
    simp only [hS, ← EReal.coe_sub, Ideal.exp_coe, ← coe_sum]
    rw [hZα]
  -- the tiled sums written over the tile index
  have hT4 : (((∑ j, Real.exp (S 0 j)) + ∑ j, Real.exp (S 1 j)) + ∑ j, Real.exp (S 2 j))
      + ∑ j, Real.exp (S 3 j) = ∑ k, ∑ j, Real.exp (S k j) :=
    (Fin.sum_univ_four (fun k => ∑ j, Real.exp (S k j))).symm
  have hU4 : (((∑ j, Real.exp (S 0 j) * V 0 j) + ∑ j, Real.exp (S 1 j) * V 1 j)
      + ∑ j, Real.exp (S 2 j) * V 2 j) + ∑ j, Real.exp (S 3 j) * V 3 j
      = ∑ k, ∑ j, Real.exp (S k j) * V k j :=
    (Fin.sum_univ_four (fun k => ∑ j, Real.exp (S k j) * V k j)).symm
  have hL4ne : (∑ k : Fin 4, ∑ j, Real.exp (S k j)) / Real.exp μ4 ≠ 0 :=
    (div_pos hTpos (Real.exp_pos _)).ne'
  rw [hL4, hA4, hT4, hU4, hden, Ideal.div_coe hL4ne]
  simp only [Ideal.div_coe hZpos.ne', hS, hV, ← EReal.coe_sub, Ideal.exp_coe, ← EReal.coe_mul, ← coe_sum]
  congr 1
  rw [real_final S V μ4 μ]
  exact (hsumα (fun k j => Real.exp (S k j - μ) * (1 / ∑ k', ∑ j', Real.exp (S k' j' - μ)) * V k j)).symm

end Cert.Layer.Softmax
-- ==== Proof.LibAttend.lean ====
/-
  Attention over slots, renormalised over the input tokens.

  Each input token `n` scores every slot `m` by a scaled dot product; the scores of one token are turned into
  weights by a softmax over the SLOTS (shifted by the token's largest score), a small constant is added to
  every weight, and each slot then averages the tokens' value rows with its weights divided by their sum over
  the TOKENS.  The division by a slot's total weight can be done once, on the weighted sum, or weight by weight,
  before the sum: on the extended reals the two agree because every weight is a positive real number and every
  value entry a real number, so a slot's total weight is a nonzero real and its reciprocal distributes over
  the sum.
-/
import Mathlib
import Idealize.ShloMosaic.PureOps.Ideal
import proofs.«157608_j49452253446155_1_alg».proof.Proof.LibSoftmax

noncomputable section

open Idealize.ShloMosaic
open scoped BigOperators

namespace Cert.Layer.Attend

open Cert.Layer.Softmax

variable {ι κ δ ν : Type*} [Fintype ι] [Fintype κ] [Fintype δ]

/-- The scaled score of token `n` against slot `m`: the dot product of the token's key row with the slot's
    query row, times the scale `c`. -/
def score (k : ι → δ → EReal) (q : κ → δ → EReal) (c : EReal) (n : ι) (m : κ) : EReal :=
  (∑ d, k n d * q m d) * c

/-- The shift of token `n`'s softmax: its largest score (a maximum folded from `⊥` over the slots, once more
    compared with `⊥`, as the softmax spells it). -/
def rowMax (s : ι → κ → EReal) (n : ι) : EReal :=
  max ⊥ ((Finset.univ : Finset κ).fold max ⊥ (s n))

/-- The weight of token `n` on slot `m`: the softmax over the slots of the token's scores, plus `ε`. -/
def weight (s : ι → κ → EReal) (ε : EReal) (n : ι) (m : κ) : EReal :=
  Ideal.div (Ideal.exp (s n m - rowMax s n)) (∑ m', Ideal.exp (s n m' - rowMax s n)) + ε

/-- Slot `m`'s output at column `p`: the weighted sum of the value rows, divided by the slot's total weight. -/
def attend (w : ι → κ → EReal) (v : ι → ν → EReal) (m : κ) (p : ν) : EReal :=
  Ideal.div (∑ n, w n m * v n p) (∑ n, w n m)

/-- Scores of real keys and queries under a real scale are real. -/
theorem score_isFin {k : ι → δ → EReal} {q : κ → δ → EReal} {c : EReal} (hk : ∀ n d, IsFin (k n d))
    (hq : ∀ m d, IsFin (q m d)) (hc : IsFin c) (n : ι) (m : κ) : IsFin (score k q c n m) :=
  (isFin_sum _ _ fun d _ => (hk n d).mul (hq m d)).mul hc

/-- The largest of finitely many (at least one) real scores is real. -/
theorem rowMax_isFin [Nonempty κ] {s : ι → κ → EReal} (hs : ∀ n m, IsFin (s n m)) (n : ι) : IsFin (rowMax s n) := by
  unfold rowMax
  rw [max_eq_right bot_le]
  exact isFin_fold_max _ (hs n)

/-- A weight built from real scores and a real nonnegative `ε` is a positive real: the exponentials are positive
    reals, so is their sum, so is the quotient. -/
theorem weight_isFin_pos [Nonempty κ] {s : ι → κ → EReal} {ε : EReal} (hs : ∀ n m, IsFin (s n m)) (hε : IsFin ε)
    (hε0 : 0 ≤ ε) (n : ι) (m : κ) : IsFin (weight s ε n m) ∧ 0 < weight s ε n m := by
  have hM := rowMax_isFin hs n
  have hex : ∀ m', IsFin (Ideal.exp (s n m' - rowMax s n)) := fun m' => ((hs n m').sub hM).exp
  have hpos : ∀ m', 0 < Ideal.exp (s n m' - rowMax s n) := fun m' => exp_pos_of_isFin ((hs n m').sub hM)
  have hZ : IsFin (∑ m', Ideal.exp (s n m' - rowMax s n)) := isFin_sum _ _ fun m' _ => hex m'
  have hZpos : 0 < ∑ m', Ideal.exp (s n m' - rowMax s n) := sum_pos' _ hpos
  obtain ⟨a, ha⟩ := (hex m).exists_coe
  obtain ⟨z, hz⟩ := hZ.exists_coe
  have hzpos : 0 < z := by rw [hz] at hZpos; exact EReal.coe_pos.mp hZpos
  have hapos : 0 < a := by have h := hpos m; rw [ha] at h; exact EReal.coe_pos.mp h
  obtain ⟨e, rfl⟩ := hε.exists_coe
  have he0 : 0 ≤ e := EReal.coe_nonneg.mp hε0
  unfold weight
  rw [ha, hz, Ideal.div_coe hzpos.ne', ← EReal.coe_mul, ← EReal.coe_add]
  exact ⟨isFin_coe _, EReal.coe_pos.mpr (add_pos_of_pos_of_nonneg (mul_pos hapos (one_div_pos.mpr hzpos)) he0)⟩

/-- DIVIDING ONCE OR WEIGHT BY WEIGHT.  For positive real weights and real values, the weighted sum divided by the
    slot's total weight is the sum of the values weighted by each weight's share of the total. -/
theorem attend_eq_sum [Nonempty ι] {w : ι → κ → EReal} {v : ι → ν → EReal} (hw : ∀ n m, IsFin (w n m))
    (hwpos : ∀ n m, 0 < w n m) (hv : ∀ n p, IsFin (v n p)) (m : κ) (p : ν) :
    attend w v m p = ∑ n, Ideal.div (w n m) (∑ n', w n' m) * v n p := by
  have hD : IsFin (∑ n, w n m) := isFin_sum _ _ fun n _ => hw n m
  have hDpos : 0 < ∑ n, w n m := sum_pos' _ fun n => hwpos n m
  obtain ⟨D, hDe⟩ := hD.exists_coe
  have hD0 : D ≠ 0 := by rw [hDe] at hDpos; exact (EReal.coe_pos.mp hDpos).ne'
  unfold attend
  rw [hDe]
  simp only [Ideal.div_coe hD0]
  exact (sum_mul_scale (fun n => w n m) (fun n => v n p) _ (fun n => hw n m) (fun n => hv n p) (isFin_coe _)).symm

end Cert.Layer.Attend

end
-- ==== Proof.LibMatmul.lean ====
/-
  A plain matrix product's contraction as a sum over the shared axis.

  For dimension numbers that contract the left operand's axis 1 with the right operand's axis 0, with no batch axis
  (rows × shared axis times shared axis × columns), the contraction index is one coordinate `k` below the shared
  extent; the left factor of the product at the output index (r, c) is the left operand at (r, k) and the right factor
  the right operand at (k, c).  So the sum over the contraction index is `∑ k, l (r, k) * r' (k, c)`.
  Both a matrix unit's product into a zero accumulator and a host `dot_general` are, on the extended reals, that sum
  over their own dimension numbers; this file reads both as the same `Fin`-indexed sum.
-/
import Idealize.ShloMosaic.Lib.ValueIdx
import Idealize.ShloMosaic.PureOps.Ideal.Laws

noncomputable section

open scoped BigOperators

namespace Cert.Layer.Matmul

open Idealize.ShloMosaic Idealize.ShloMosaic.ValueIdx

/-- The sum over a plain product's contraction index is the sum over the shared axis' coordinate of the left operand
    at (row, k) times the right operand at (k, column). -/
theorem plain_contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (n0 := M) (n1 := K) (j 0) k) * r (ix2 (n0 := K) (n1 := N) k (j 1)) := by
  obtain ⟨lc, rc, ln, rn, lb, rb, wf⟩ := d
  dsimp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  have hlc : D.lhsContracting = [1] := by subst hD; rfl
  have hrc : D.rhsContracting = [0] := by subst hD; rfl
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (n0 := M) (n1 := K) (j 0) k := funext fun a => Fin.ext (by
    match a with
    | ⟨0, _⟩ =>
      subst hD
      show (DotDims.lhsIdx _ j _ ⟨0, _⟩).val = (j 0).val
      unfold DotDims.lhsIdx
      split
      · rename_i hb; exact absurd hb List.not_mem_nil
      · split
        · rfl
        · rename_i hn; exact absurd (List.mem_singleton.mpr rfl) hn
    | ⟨1, _⟩ => exact (D.lhsIdx_val_of_single hlc j _).trans hk)
  have er : D.rhsIdx j ((contrEquiv1 D K hr hs).symm k) = ix2 (n0 := K) (n1 := N) k (j 1) := funext fun a => Fin.ext (by
    match a with
    | ⟨0, _⟩ => exact (D.rhsIdx_val_of_single hrc j _).trans hk
    | ⟨1, _⟩ =>
      subst hD
      show (DotDims.rhsIdx _ j _ ⟨1, _⟩).val = (j 1).val
      unfold DotDims.rhsIdx
      split
      · rename_i hb; exact absurd hb List.not_mem_nil
      · split
        · rfl
        · rename_i hn; exact absurd (List.mem_singleton.mpr rfl) hn)
  exact congrArg₂ (· * ·) (congrArg l el) (congrArg r er)

end Cert.Layer.Matmul

end
-- ==== Proof.LibColumn.lean ====
/-
  Two layout operations read at an index given by coordinates: a vector made a one-column matrix, and a
  one-column matrix spread over the columns of a wider one.  Together they turn a per-row quantity (a scale,
  a mean, a variance) into a matrix that is constant along each row.
-/
import Idealize.ShloMosaic.Lib.ValueLayout

namespace Cert.Layer.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layer.Column
-- ==== Proof.LibRowReduce.lean ====
/-
  A matrix reduced along one axis, read at an index, on the extended reals.

  The sum of a matrix along its rows (axis 1) at row `n` is the sum over the columns `k` of the entry `(n, k)`; the
  sum down its columns (axis 0) at column `m` is the sum over the rows `k` of the entry `(k, m)`; the maximum along
  a row is the fold of `max` over that row's entries, from the value of the accumulator's word.  The same for
  the last axis of a rank-3 array reduced by the host with a maximum.
-/
import Idealize.ShloMosaic.Lib.ValueIdx
import Idealize.ShloMosaic.PureOps.Ideal.Laws

noncomputable section

open scoped BigOperators

namespace Cert.Layer.RowReduce

open Idealize.ShloMosaic Idealize.ShloMosaic.ValueIdx

/-- A lane sum over axis 1 of an `[a, b]` matrix, at row `n`: the sum of that row's entries. -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (n : Fin a) :
    multiReduction .add [1] ⟨1, ![a]⟩ v acc h hφ hacc (ix1 n) = ∑ k : Fin b, v (ix2 n k) := by
  refine (Ideal.multiReduction_add_single v acc h hφ hacc (ix1 n)).trans ?_
  refine Finset.sum_congr rfl fun k _ => congrArg v ?_
  funext c
  apply Fin.ext
  match c with
  | ⟨0, _⟩ => rfl
  | ⟨1, _⟩ => rfl

/-- A sum over axis 0 of an `[a, b]` matrix, at column `m`: the sum of that column's entries. -/
theorem colSum_apply {a b : ℕ} (v : FVec Ideal ⟨2, ![a, b]⟩ .f32) (acc : BitVec 32)
    (h : (⟨2, ![a, b]⟩ : Shape).Reduces [0] ⟨1, ![b]⟩) (hφ : FKind.Formats .f32)
    (hacc : acc = FKind.add.neutral .f32 hφ) (m : Fin b) :
    multiReduction .add [0] ⟨1, ![b]⟩ v acc h hφ hacc (ix1 m) = ∑ k : Fin a, v (ix2 k m) := by
  refine (Ideal.multiReduction_add_single v acc h hφ hacc (ix1 m)).trans ?_
  refine Finset.sum_congr rfl fun k _ => congrArg v ?_
  funext c
  apply Fin.ext
  match c with
  | ⟨0, _⟩ => rfl
  | ⟨1, _⟩ => rfl

/-- A lane maximum over axis 1 of an `[a, b]` matrix, at row `n`: the fold of `max` over that row's entries. -/
theorem rowMax_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (n : Fin a) :
    multiReduction .maximumf [1] ⟨1, ![a]⟩ v acc h hφ hacc (ix1 n)
      = (Finset.univ : Finset (Fin b)).fold max (Ideal.ofBits .f32 acc) (fun k => v (ix2 n k)) := by
  refine (Ideal.multiReduction_maximumf_single v acc h hφ hacc (ix1 n)).trans ?_
  refine congrArg (fun f => (Finset.univ : Finset (Fin b)).fold max (Ideal.ofBits .f32 acc) f) ?_
  funext k
  refine congrArg v ?_
  funext c
  apply Fin.ext
  match c with
  | ⟨0, _⟩ => rfl
  | ⟨1, _⟩ => rfl

/-- The host's maximum over the last axis of an `[a, b, c]` array, at `(i, n)`: the fold of `max` over the entries
    `(i, n, k)`, from the initial value. -/
theorem hostMax3_apply {a b c : ℕ} {u : Shape} (x : FVec Ideal ⟨3, ![a, b, c]⟩ .f32) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (n : Fin b) :
    Host.reduce (FloatOps.maximumf (F := Ideal) (φ := .f32)) x init h' hu (ix2 i n)
      = (Finset.univ : Finset (Fin c)).fold max (init (Shape.Idx.first hu)) (fun k => x (ix3 i n k)) := by
  refine (Host.reduce_eq_fold_single (FloatOps.maximumf (F := Ideal) (φ := .f32)) x init h' h hu (ix2 i n)).trans ?_
  show (Finset.univ : Finset (Fin c)).fold max (init (Shape.Idx.first hu)) (x ∘ h.lift (ix2 i n)) = _
  refine congrArg (fun f => (Finset.univ : Finset (Fin c)).fold max (init (Shape.Idx.first hu)) f) ?_
  funext k
  refine congrArg x ?_
  funext d
  apply Fin.ext
  match d with
  | ⟨0, _⟩ => rfl
  | ⟨1, _⟩ => rfl
  | ⟨2, _⟩ => rfl

end Cert.Layer.RowReduce

end
-- ==== Proof.AttnConsts.lean ====
/-
  The four float words of the attention layer, read as extended reals: the word of minus infinity is `⊥`;
  `64.0` is 64, whose square root is 8; `0.125` is 1/8 — so dividing by the square root of 64 is multiplying by
  0.125, on every extended real —; and the added constant (the single-precision word nearest to 1e-8) is a
  positive real.
-/
import Mathlib
import Idealize.ShloMosaic.PureOps.Ideal
import proofs.«157608_j49452253446155_1_alg».proof.Proof.LibSoftmax

open Idealize.ShloMosaic

namespace Cert.Attn.Consts

open Cert.Layer.Softmax

/-- The single-precision word of minus infinity is the bottom extended real. -/
theorem ofBits_neg_inf : Ideal.ofBits .f32 0xFF800000#32 = ⊥ := by simp [Ideal.ofBits, Ideal.ieee]

/-- The word `0x42800000` is 64. -/
theorem ofBits_64 : Ideal.ofBits .f32 0x42800000#32 = ((64 : ℝ) : EReal) := by
  simp [Ideal.ofBits, Ideal.ieee]
  rw [← EReal.coe_mul, EReal.coe_eq_coe_iff]
  norm_num

/-- The word `0x3E000000` is 1/8. -/
theorem ofBits_eighth : Ideal.ofBits .f32 0x3E000000#32 = ((1 / 8 : ℝ) : EReal) := by
  simp [Ideal.ofBits, Ideal.ieee]
  rw [← EReal.coe_mul, EReal.coe_eq_coe_iff]
  norm_num

/-- The word `0x322BCC77` is the real 11258999 / 2^50. -/
theorem ofBits_eps : Ideal.ofBits .f32 0x322BCC77#32 = ((11258999 * (2 ^ 50)⁻¹ : ℝ) : EReal) := by
  simp [Ideal.ofBits, Ideal.ieee]

theorem eps_isFin : IsFin (Ideal.ofBits .f32 0x322BCC77#32) := by rw [ofBits_eps]; exact isFin_coe _

theorem eps_nonneg : 0 ≤ Ideal.ofBits .f32 0x322BCC77#32 := by
  rw [ofBits_eps]; exact EReal.coe_nonneg.mpr (by positivity)

theorem eighth_isFin : IsFin (Ideal.ofBits .f32 0x3E000000#32) := by rw [ofBits_eighth]; exact isFin_coe _

/-- Dividing by the square root of 64 is multiplying by 1/8, at the infinities too. -/
theorem div_sqrt_64 (x : EReal) :
    Ideal.div x (Ideal.sqrt (Ideal.ofBits .f32 0x42800000#32)) = x * Ideal.ofBits .f32 0x3E000000#32 := by
  have h8 : Real.sqrt 64 = 8 := by
    rw [show (64 : ℝ) = 8 ^ 2 by norm_num]; exact Real.sqrt_sq (by norm_num)
  rw [ofBits_64, ofBits_eighth, Ideal.sqrt_coe, if_neg (by norm_num), h8, Ideal.div_coe (by norm_num : (8 : ℝ) ≠ 0)]

end Cert.Attn.Consts
-- ==== Proof.KernelStages.lean ====
/-
  The kernel body's arithmetic cut into its stages, and each stage read at an index on the extended reals.

  One grid point handles one batch entry: it loads the entry's key rows (4096 × 64), query rows (8 × 64) and value
  rows (4096 × 64) and stores 8 × 64 output entries.  The stages are: the scaled scores (a product with the
  transposed query, times 1/8); each token's shift (its largest score, kept as a column and spread over the
  slots); the exponentials of the shifted scores; their sums over the slots, again spread; the weights
  (exponential over sum, plus a constant); each slot's total weight (a sum over the tokens, turned into a
  column and spread over the output columns); the weighted sums of the value rows (a product with the transposed
  weights); and the quotient.  A change of float format is the identity on the extended reals, so the roundings
  to the matrix unit's input format do not appear.
-/
import proofs.«157608_j49452253446155_1_alg».proof.Proof.Gen.KernelIdeal.Skeleton
import proofs.«157608_j49452253446155_1_alg».proof.Proof.LibAttend
import proofs.«157608_j49452253446155_1_alg».proof.Proof.LibMatmul
import proofs.«157608_j49452253446155_1_alg».proof.Proof.LibColumn
import proofs.«157608_j49452253446155_1_alg».proof.Proof.LibRowReduce
import proofs.«157608_j49452253446155_1_alg».proof.Proof.AttnConsts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx
open Cert.Layer.Attend Cert.Layer.Matmul Cert.Layer.Column Cert.Layer.RowReduce

variable {F : FTy → Type} [FloatOps F]

/-! ## The stages, in the body's own operations -/

/-- The scaled scores, token by slot. -/
def scoreV (v0 : Vec F S1x4096x64 .f32) (v3 : Vec F S1x8x64 .f32) : FVec F S4096x8 .f32 :=
  have v1 : FVec F S4096x64 .f32 := shapeCast S4096x64 v0 shapeCasts_S1x4096x64_S4096x64
  have v2 : FVec F S4096x64 .bf16 := truncf .bf16 v1 bitsLt_bf16_f32
  have v4 : FVec F S8x64 .f32 := shapeCast S8x64 v3 shapeCasts_S1x8x64_S8x64
  have v5 : FVec F S8x64 .bf16 := truncf .bf16 v4 bitsLt_bf16_f32
  have v6 : FVec F S64x8 .bf16 := transpose S64x8 [1, 0] v5 transposes_S8x64_p1_0_S64x8
  have cst : FVec F S4096x8 .f32 := constant S4096x8 .f32 0x00000000#32
  have v7 : FVec F S4096x8 .f32 := matmul dot_S4096x64_S64x8_S4096x8_1_0_0_1_n_n none v2 v6 cst
  have cst_5 : F .f32 := Scalar.ofBits .f32 0x3E000000#32
  have v8 : FVec F S4096x8 .f32 := broadcast S4096x8 cst_5
  have v9 : FVec F S4096x8 .f32 := mulf v7 v8
  v9

/-- Each token's largest score, spread over the slots. -/
def shiftV (v9 : FVec F S4096x8 .f32) : FVec F S4096x8 .f32 :=
  have v10 : FVec F S4096 .f32 := multiReduction .maximumf [1] S4096 v9 0xFF800000#32 reduces_S4096x8_S4096 (.inl rfl) rfl
  have cst_7 : F .f32 := Scalar.ofBits .f32 0xFF800000#32
  have v11 : FVec F S4096 .f32 := broadcast S4096 cst_7
  have v12 : FVec F S4096 .f32 := maximumf v11 v10
  have v13 : FVec F S4096x1 .f32 := shapeCast S4096x1 v12 shapeCasts_S4096_S4096x1
  have v14 : FVec F S4096x8 .f32 := broadcastTo S4096x8 v13 broadcasts_S4096x1_S4096x8
  v14

/-- The exponentials of the shifted scores. -/
def expV (v9 : FVec F S4096x8 .f32) : FVec F S4096x8 .f32 :=
  have v15 : FVec F S4096x8 .f32 := subf v9 (shiftV v9)
  have v16 : FVec F S4096x8 .f32 := exp v15
  v16

/-- Each token's sum of exponentials over the slots, spread over the slots. -/
def totalV (v16 : FVec F S4096x8 .f32) : FVec F S4096x8 .f32 :=
  have v17 : FVec F S4096 .f32 := multiReduction .add [1] S4096 v16 0x00000000#32 reduces_S4096x8_S4096 (.inl rfl) rfl
  have v18 : FVec F S4096x1 .f32 := shapeCast S4096x1 v17 shapeCasts_S4096_S4096x1
  have v19 : FVec F S4096x8 .f32 := broadcastTo S4096x8 v18 broadcasts_S4096x1_S4096x8
  v19

/-- The weights: the softmax over the slots plus the constant. -/
def weightV (v9 : FVec F S4096x8 .f32) : FVec F S4096x8 .f32 :=
  have v20 : FVec F S4096x8 .f32 := divf (expV v9) (totalV (expV v9))
  have cst_9 : F .f32 := Scalar.ofBits .f32 0x322BCC77#32
  have v21 : FVec F S4096x8 .f32 := broadcast S4096x8 cst_9
  have v22 : FVec F S4096x8 .f32 := addf v20 v21
  v22

/-- Each slot's total weight over the tokens, as a column spread over the output's columns. -/
def denomV (v22 : FVec F S4096x8 .f32) : FVec F S8x64 .f32 :=
  have v23 : FVec F S8 .f32 := multiReduction .add [0] S8 v22 0x00000000#32 reduces_S4096x8_S8 (.inl rfl) rfl
  have v24 : FVec F S1x8 .f32 := shapeCast S1x8 v23 shapeCasts_S8_S1x8
  have v31 : FVec F S8x1 .f32 := transpose S8x1 [1, 0] v24 transposes_S1x8_p1_0_S8x1
  have v32 : FVec F S8x64 .f32 := broadcastTo S8x64 v31 broadcasts_S8x1_S8x64
  v32

/-- Each slot's weighted sum of the value rows. -/
def numerV (v22 : FVec F S4096x8 .f32) (v25 : Vec F S1x4096x64 .f32) : FVec F S8x64 .f32 :=
  have v26 : FVec F S4096x64 .f32 := shapeCast S4096x64 v25 shapeCasts_S1x4096x64_S4096x64
  have v27 : FVec F S4096x64 .bf16 := truncf .bf16 v26 bitsLt_bf16_f32
  have v28 : FVec F S4096x8 .bf16 := truncf .bf16 v22 bitsLt_bf16_f32
  have v29 : FVec F S8x4096 .bf16 := transpose S8x4096 [1, 0] v28 transposes_S4096x8_p1_0_S8x4096
  have cst_14 : FVec F S8x64 .f32 := constant S8x64 .f32 0x00000000#32
  have v30 : FVec F S8x64 .f32 := matmul dot_S8x4096_S4096x64_S8x64_1_0_0_1_n_n none v29 v27 cst_14
  v30

/-- The stored block: the weighted sums over the total weights. -/
def outV (v22 : FVec F S4096x8 .f32) (v25 : Vec F S1x4096x64 .f32) : FVec F S1x8x64 .f32 :=
  have v33 : FVec F S8x64 .f32 := divf (numerV v22 v25) (denomV v22)
  have v36 : FVec F S1x8x64 .f32 := shapeCast S1x8x64 v33 shapeCasts_S8x64_S1x8x64
  v36

/-- The body's stored value is the composition of the stages. -/
theorem pay_split (v0 : Vec F S1x4096x64 .f32) (v3 : Vec F S1x8x64 .f32) (v25 : Vec F S1x4096x64 .f32) :
    k0_pay1 v0 v3 v25 = outV (weightV (scoreV v0 v3)) v25 := rfl

end Cert.KernelIdeal.Hand

end
-- ==== Proof.KernelRead.lean ====
/-
  Each stage of the kernel body read at an index, on the extended reals, and their composition: the stored block's
  entry `(·, m, p)` is the attention output of the loaded key, query and value rows.
-/
import proofs.«157608_j49452253446155_1_alg».proof.Proof.KernelStages

noncomputable section

open scoped BigOperators

namespace Cert.KernelIdeal.Hand

open Cert.KernelIdeal Cert.KernelIdeal.Gen Idealize.ShloMosaic Idealize.ShloMosaic.ValueIdx
open Cert.Layer.Attend Cert.Layer.Matmul Cert.Layer.Column Cert.Layer.RowReduce

/-- The scaled score of token `n` against slot `m`: the product with the transposed query contracts the 64 features,
    and the splat constant is 1/8. -/
theorem scoreV_apply (x0 : Vec Ideal S1x4096x64 .f32) (x3 : Vec Ideal S1x8x64 .f32) (n : Fin 4096) (m : Fin 8) :
    scoreV (F := Ideal) x0 x3 (ix2 n m)
      = score (fun (n : Fin 4096) (d : Fin 64) => x0 (ix3 (0 : Fin 1) n d))
          (fun (m : Fin 8) (d : Fin 64) => x3 (ix3 (0 : Fin 1) m d)) (Ideal.ofBits .f32 0x3E000000#32) n m := by
  unfold scoreV score
  show FloatOps.matmul dot_S4096x64_S64x8_S4096x8_1_0_0_1_n_n none _ _ (constant S4096x8 .f32 0x00000000#32) (ix2 n m)
    * Ideal.ofBits .f32 0x3E000000#32 = _
  refine congrArg (· * Ideal.ofBits .f32 0x3E000000#32) ?_
  refine (Ideal.matmul_constant_zero_apply _ none _ _ (ix2 n m)).trans ?_
  refine (plain_contr_sum dot_S4096x64_S64x8_S4096x8_1_0_0_1_n_n rfl rfl rfl rfl rfl rfl _ _ (ix2 n m)).trans ?_
  refine Finset.sum_congr rfl fun d _ => ?_
  refine congrArg₂ (· * ·) (shapeCast_1ab_ab_apply x0 _ n d) ?_
  exact (transpose_ix2_apply _ _ d m).trans (shapeCast_1ab_ab_apply x3 _ m d)

/-- The shift of token `n`, at any slot: its largest score. -/
theorem shiftV_apply (s : FVec Ideal S4096x8 .f32) (n : Fin 4096) (m : Fin 8) :
    shiftV (F := Ideal) s (ix2 n m) = rowMax (fun (n : Fin 4096) (m : Fin 8) => s (ix2 n m)) n := by
  unfold shiftV rowMax
  refine (broadcastTo_a1_ab_apply _ _ n m).trans ?_
  refine (shapeCast_a_a1_apply _ _ n 0).trans ?_
  show max (Ideal.ofBits .f32 0xFF800000#32)
    (multiReduction .maximumf [1] S4096 s 0xFF800000#32 reduces_S4096x8_S4096 (.inl rfl) rfl (ix1 n)) = _
  rw [rowMax_apply s 0xFF800000#32 reduces_S4096x8_S4096 (.inl rfl) rfl n, Cert.Attn.Consts.ofBits_neg_inf]

/-- The exponential of a shifted score. -/
theorem expV_apply (s : FVec Ideal S4096x8 .f32) (n : Fin 4096) (m : Fin 8) :
    expV (F := Ideal) s (ix2 n m)
      = Ideal.exp (s (ix2 n m) - rowMax (fun (n : Fin 4096) (m : Fin 8) => s (ix2 n m)) n) := by
  unfold expV
  show Ideal.exp (s (ix2 n m) - shiftV s (ix2 n m)) = _
  rw [shiftV_apply]

/-- The sum over the slots of token `n`'s entries, at any slot. -/
theorem totalV_apply (e : FVec Ideal S4096x8 .f32) (n : Fin 4096) (m : Fin 8) :
    totalV (F := Ideal) e (ix2 n m) = ∑ k : Fin 8, e (ix2 n k) := by
  unfold totalV
  refine (broadcastTo_a1_ab_apply _ _ n m).trans ?_
  refine (shapeCast_a_a1_apply _ _ n 0).trans ?_
  exact rowSum_apply e 0x00000000#32 reduces_S4096x8_S4096 (.inl rfl) rfl n

/-- The weight of token `n` on slot `m`. -/
theorem weightV_apply (s : FVec Ideal S4096x8 .f32) (n : Fin 4096) (m : Fin 8) :
    weightV (F := Ideal) s (ix2 n m)
      = weight (fun (n : Fin 4096) (m : Fin 8) => s (ix2 n m)) (Ideal.ofBits .f32 0x322BCC77#32) n m := by
  unfold weightV weight
  show Ideal.div (expV s (ix2 n m)) (totalV (expV s) (ix2 n m)) + Ideal.ofBits .f32 0x322BCC77#32 = _
  rw [totalV_apply]
  simp only [expV_apply]

/-- Slot `m`'s total weight, at any output column. -/
theorem denomV_apply (w : FVec Ideal S4096x8 .f32) (m : Fin 8) (p : Fin 64) :
    denomV (F := Ideal) w (ix2 m p) = ∑ n : Fin 4096, w (ix2 n m) := by
  unfold denomV
  refine (broadcastTo_a1_ab_apply _ _ m p).trans ?_
  refine (transpose_ix2_apply _ _ m (0 : Fin 1)).trans ?_
  refine (shapeCast_a_1a_apply _ _ (0 : Fin 1) m).trans ?_
  exact colSum_apply w 0x00000000#32 reduces_S4096x8_S8 (.inl rfl) rfl m

/-- Slot `m`'s weighted sum of column `p` of the value rows: the product with the transposed weights contracts the
    4096 tokens. -/
theorem numerV_apply (w : FVec Ideal S4096x8 .f32) (x25 : Vec Ideal S1x4096x64 .f32) (m : Fin 8) (p : Fin 64) :
    numerV (F := Ideal) w x25 (ix2 m p) = ∑ n : Fin 4096, w (ix2 n m) * x25 (ix3 (0 : Fin 1) n p) := by
  unfold numerV
  refine (Ideal.matmul_constant_zero_apply _ none _ _ (ix2 m p)).trans ?_
  refine (plain_contr_sum dot_S8x4096_S4096x64_S8x64_1_0_0_1_n_n rfl rfl rfl rfl rfl rfl _ _ (ix2 m p)).trans ?_
  refine Finset.sum_congr rfl fun n _ => ?_
  exact congrArg₂ (· * ·) (transpose_ix2_apply _ _ m n) (shapeCast_1ab_ab_apply x25 _ n p)

/-- The stored entry `(·, m, p)`. -/
theorem outV_apply (w : FVec Ideal S4096x8 .f32) (x25 : Vec Ideal S1x4096x64 .f32) (u : Fin 1) (m : Fin 8) (p : Fin 64) :
    outV (F := Ideal) w x25 (ix3 u m p)
      = attend (fun (n : Fin 4096) (m : Fin 8) => w (ix2 n m)) (fun (n : Fin 4096) (p : Fin 64) => x25 (ix3 (0 : Fin 1) n p)) m p := by
  unfold outV attend
  refine (shapeCast_ab_1ab_apply _ _ u m p).trans ?_
  show Ideal.div (numerV w x25 (ix2 m p)) (denomV w (ix2 m p)) = _
  rw [numerV_apply, denomV_apply]

/-- THE BODY'S STORED VALUE at `(·, m, p)`: the attention output of the loaded rows — keys `x0`, query `x3`,
    values `x25`. -/
theorem pay_apply (x0 : Vec Ideal S1x4096x64 .f32) (x3 : Vec Ideal S1x8x64 .f32) (x25 : Vec Ideal S1x4096x64 .f32)
    (u : Fin 1) (m : Fin 8) (p : Fin 64) :
    k0_pay1 (F := Ideal) x0 x3 x25 (ix3 u m p)
      = attend (weight (score (fun (n : Fin 4096) (d : Fin 64) => x0 (ix3 (0 : Fin 1) n d))
            (fun (m : Fin 8) (d : Fin 64) => x3 (ix3 (0 : Fin 1) m d)) (Ideal.ofBits .f32 0x3E000000#32))
          (Ideal.ofBits .f32 0x322BCC77#32))
        (fun (n : Fin 4096) (p : Fin 64) => x25 (ix3 (0 : Fin 1) n p)) m p := by
  rw [pay_split, outV_apply]
  refine congrArg (fun w => attend w _ m p) ?_
  funext n m'
  rw [weightV_apply]
  refine congrArg (fun s => weight s _ n m') ?_
  funext n' m''
  exact scoreV_apply x0 x3 n' m''

end Cert.KernelIdeal.Hand

end
-- ==== Proof.AttnSpec.lean ====
/-
  The layer as one function of its three argument arrays.

  Keys and values are `[32, 4096, 64]` arrays, the query a `[32, 8, 64]` array; the batch entries are independent.
  In batch `b`, token `n` (of 4096) scores slot `m` (of 8) by the dot product of key row `(b, n)` with query row
  `(b, m)`, times 1/8; the weights are the softmax of a token's scores over the eight slots plus a small constant;
  the output entry `(b, m, p)` is slot `m`'s weighted sum of column `p` of the value rows of batch `b`, divided by
  the slot's total weight.  `attnAt` divides the weighted sum once; `attnAtShares` divides every weight first and
  sums afterwards.  For arrays of real numbers the two are equal.
-/
import Idealize.ShloMosaic.Lib.ValueIdx
import proofs.«157608_j49452253446155_1_alg».proof.Proof.LibAttend
import proofs.«157608_j49452253446155_1_alg».proof.Proof.AttnConsts

noncomputable section

open scoped BigOperators

namespace Cert.Attn.Spec

open Idealize.ShloMosaic Idealize.ShloMosaic.ValueIdx Cert.Layer.Attend Cert.Layer.Softmax

/-- The shape of the keys and of the values. -/
abbrev SKV : Shape := ⟨3, ![32, 4096, 64]⟩
/-- The shape of the query and of the output. -/
abbrev SQ : Shape := ⟨3, ![32, 8, 64]⟩

/-- The weights of batch `b`: token by slot. -/
def weights (keys : SKV.Idx → EReal) (query : SQ.Idx → EReal) (b : Fin 32) : Fin 4096 → Fin 8 → EReal :=
  weight (score (fun (n : Fin 4096) (d : Fin 64) => keys (ix3 b n d)) (fun (m : Fin 8) (d : Fin 64) => query (ix3 b m d))
    (Ideal.ofBits .f32 0x3E000000#32)) (Ideal.ofBits .f32 0x322BCC77#32)

/-- The output entry `(b, m, p)`, the weighted sum divided once by the slot's total weight. -/
def attnAt (keys values : SKV.Idx → EReal) (query : SQ.Idx → EReal) (b : Fin 32) (m : Fin 8) (p : Fin 64) : EReal :=
  attend (weights keys query b) (fun (n : Fin 4096) (p : Fin 64) => values (ix3 b n p)) m p

/-- The same entry with every weight divided by the slot's total weight before the sum. -/
def attnAtShares (keys values : SKV.Idx → EReal) (query : SQ.Idx → EReal) (b : Fin 32) (m : Fin 8) (p : Fin 64) : EReal :=
  ∑ n : Fin 4096, Ideal.div (weights keys query b n m) (∑ n' : Fin 4096, weights keys query b n' m) * values (ix3 b n p)

/-- The whole output array. -/
def attnOut (keys values : SKV.Idx → EReal) (query : SQ.Idx → EReal) : SQ.Idx → EReal :=
  fun i => attnAt keys values query (i 0) (i 1) (i 2)

theorem attnOut_ix3 (keys values : SKV.Idx → EReal) (query : SQ.Idx → EReal) (b : Fin 32) (m : Fin 8) (p : Fin 64) :
    attnOut keys values query (ix3 b m p) = attnAt keys values query b m p := rfl

/-- The weights of real keys and queries are positive reals. -/
theorem weights_isFin_pos {keys : SKV.Idx → EReal} {query : SQ.Idx → EReal} (hk : ∀ i, IsFin (keys i))
    (hq : ∀ i, IsFin (query i)) (b : Fin 32) (n : Fin 4096) (m : Fin 8) :
    IsFin (weights keys query b n m) ∧ 0 < weights keys query b n m :=
  weight_isFin_pos (fun n m => score_isFin (fun n d => hk _) (fun m d => hq _) Cert.Attn.Consts.eighth_isFin n m)
    Cert.Attn.Consts.eps_isFin Cert.Attn.Consts.eps_nonneg n m

/-- On arrays of real numbers, dividing every weight first gives the same output as dividing the weighted sum once. -/
theorem attnAtShares_eq {keys values : SKV.Idx → EReal} {query : SQ.Idx → EReal} (hk : ∀ i, IsFin (keys i))
    (hv : ∀ i, IsFin (values i)) (hq : ∀ i, IsFin (query i)) (b : Fin 32) (m : Fin 8) (p : Fin 64) :
    attnAtShares keys values query b m p = attnAt keys values query b m p :=
  (attend_eq_sum (fun n m => (weights_isFin_pos hk hq b n m).1) (fun n m => (weights_isFin_pos hk hq b n m).2)
    (fun n p => hv _) m p).symm

end Cert.Attn.Spec

end
-- ==== Proof.KernelValue.lean ====
/-
  From blocks to the array.  Grid point `t` (of 32) stages batch entry `t` of the keys, the values and the query —
  every window's block index is (`t`, 0, 0) — and writes back batch entry `t` of the output.  What it writes is the
  layer's function of the three argument arrays read on that block; the 32 blocks cover the output array, so
  after the run the array is that function.
-/
import proofs.«157608_j49452253446155_1_alg».proof.Proof.Gen.KernelIdeal.Value
import proofs.«157608_j49452253446155_1_alg».proof.Proof.KernelRead
import proofs.«157608_j49452253446155_1_alg».proof.Proof.AttnSpec
import Idealize.ShloMosaic.Lib.Pipeline.Value
import Idealize.ShloMosaic.Lib.Tactic

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)
open Cert.Attn.Spec

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps, decided over the 32 grid points: every window's block index is (the point, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The stored block is the layer's function at the block's place: for loaded rows that are batch entry `b` of three
    arrays, the body's stored entry at `y` is the layer's output at the index `i` = (`b`, `y 1`, `y 2`). -/
theorem pay_eq_out (x0 x1 : Vec Ideal S1x4096x64 .f32) (x2 : Vec Ideal S1x8x64 .f32)
    (keys values : S32x4096x64.Idx → EReal) (query : S32x8x64.Idx → EReal) (b : Fin 32)
    (h0 : ∀ (n : Fin 4096) (d : Fin 64), x0 (ix3 (0 : Fin 1) n d) = keys (ix3 b n d))
    (h1 : ∀ (n : Fin 4096) (p : Fin 64), x1 (ix3 (0 : Fin 1) n p) = values (ix3 b n p))
    (h2 : ∀ (k : Fin 8) (d : Fin 64), x2 (ix3 (0 : Fin 1) k d) = query (ix3 b k d))
    (y : S1x8x64.Idx) (i : S32x8x64.Idx) (hi0 : (i 0).val = b.val) (hi1 : (i 1).val = (y 1).val)
    (hi2 : (i 2).val = (y 2).val) :
    k0_pay1 (F := Ideal) x0 x2 x1 y = attnOut keys values query i := by
  obtain ⟨u, k, p, rfl⟩ : ∃ (u : Fin 1) (k : Fin 8) (p : Fin 64), y = ix3 u k p := ⟨y 0, y 1, y 2, eq_ix3 y⟩
  have hi : i = ix3 b k p := funext fun a => Fin.ext (by
    match a with
    | ⟨0, _⟩ => exact hi0
    | ⟨1, _⟩ => exact hi1
    | ⟨2, _⟩ => exact hi2)
  rw [hi, attnOut_ix3, pay_apply]
  unfold attnAt weights
  simp only [h0, h1, h2]

/-- The key window's block at point `t` is batch entry `t` of the keys. -/
theorem blk0 (c : Dev nD) (t : Fin cfg0.N) (b : Fin 32) (hb : b.val = t.val) (n : Fin 4096) (d : Fin 64) :
    (iblk m c 0 t : Vec Ideal S1x4096x64 .f32) (ix3 (0 : Fin 1) n d) = V m c main_arg0 (ix3 b n d) := by
  obtain ⟨e0, e1, e2, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 3) * 1 + 1 * 0 = b.val; omega
  | ⟨1, _⟩ => show win0_0.index t (1 : Fin 3) * 4096 + 1 * n.val = n.val; omega
  | ⟨2, _⟩ => show win0_0.index t (2 : Fin 3) * 64 + 1 * d.val = d.val; omega

/-- The value window's block at point `t` is batch entry `t` of the values. -/
theorem blk1 (c : Dev nD) (t : Fin cfg0.N) (b : Fin 32) (hb : b.val = t.val) (n : Fin 4096) (p : Fin 64) :
    (iblk m c 1 t : Vec Ideal S1x4096x64 .f32) (ix3 (0 : Fin 1) n p) = V m c main_arg1 (ix3 b n p) := by
  obtain ⟨-, -, -, e0, e1, e2, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 3) * 1 + 1 * 0 = b.val; omega
  | ⟨1, _⟩ => show win0_1.index t (1 : Fin 3) * 4096 + 1 * n.val = n.val; omega
  | ⟨2, _⟩ => show win0_1.index t (2 : Fin 3) * 64 + 1 * p.val = p.val; omega

/-- The query window's block at point `t` is batch entry `t` of the query. -/
theorem blk2 (c : Dev nD) (t : Fin cfg0.N) (b : Fin 32) (hb : b.val = t.val) (k : Fin 8) (d : Fin 64) :
    (iblk m c 2 t : Vec Ideal S1x8x64 .f32) (ix3 (0 : Fin 1) k d) = V m c main_arg2 (ix3 b k d) := by
  obtain ⟨-, -, -, -, -, -, e0, e1, e2, -⟩ := idx_facts t
  unfold iblk
  rw [View.read_apply]
  show V m c main_arg2 _ = V m c main_arg2 _
  refine congrArg (V m c main_arg2) ?_
  funext a
  apply Fin.ext
  match a with
  | ⟨0, _⟩ => show win0_2.index t (0 : Fin 3) * 1 + 1 * 0 = b.val; omega
  | ⟨1, _⟩ => show win0_2.index t (1 : Fin 3) * 8 + 1 * k.val = k.val; omega
  | ⟨2, _⟩ => show win0_2.index t (2 : Fin 3) * 64 + 1 * d.val = d.val; omega

/-- WHAT POINT `t` WRITES BACK is block `t` of the layer's function of the argument arrays as the region finds them. -/
theorem flushed_eq (c : Dev nD) (t : Fin cfg0.N) :
    (dats m 0 c).flushed 3 t
      = ((cfg0.win 3).blk t).view.read (Elt Ideal) (attnOut (V m c main_arg0) (V m c main_arg1) (V m c main_arg2)) := by
  rw [Cert.KernelIdeal.Value.flushed3]
  unfold out0_3
  rw [View.canon_unit_zero hz3]
  simp only [View.ld_unit_zero (S := S1x4096x64) hz3, View.ld_unit_zero (S := S1x8x64) hz3]
  obtain ⟨-, -, -, -, -, -, -, -, -, e0, e1, e2⟩ := idx_facts t
  have ht : t.val < 32 := lt_of_lt_of_eq t.isLt N_0
  funext j
  rw [View.read_apply]
  show k0_pay1 (iblk m c 0 t) (iblk m c 2 t) (iblk m c 1 t) j
    = attnOut (V m c main_arg0) (V m c main_arg1) (V m c main_arg2) (((cfg0.win 3).blk t).view.emb j)
  have hj0 : (j 0).val < 1 := (j 0).isLt
  refine pay_eq_out (iblk m c 0 t) (iblk m c 1 t) (iblk m c 2 t) _ _ _ ⟨t.val, ht⟩
    (blk0 m c t ⟨t.val, ht⟩ rfl) (blk1 m c t ⟨t.val, ht⟩ rfl) (blk2 m c t ⟨t.val, ht⟩ rfl) j _ ?_ ?_ ?_
  · show win0_3.index t (0 : Fin 3) * 1 + 1 * (j 0).val = t.val; omega
  · show win0_3.index t (1 : Fin 3) * 8 + 1 * (j 1).val = (j 1).val; omega
  · show win0_3.index t (2 : Fin 3) * 64 + 1 * (j 2).val = (j 2).val; omega

/-- An index of the output array is in point `t`'s block iff each coordinate is in the block's range on its axis. -/
theorem mem_blk (t : Fin cfg0.N) (i : S32x8x64.Idx) :
    i ∈ ((cfg0.win 3).blk t).view.set ↔ ∀ a : Fin 3, win0_3.index t a * S1x8x64.size a ≤ (i a).val
      ∧ (i a).val < win0_3.index t a * S1x8x64.size a + S1x8x64.size a := by
  show i ∈ ((View.whole main_v0).slice (win0_3.rect t)).set ↔ _
  rw [View.set_slice_whole, Rect.mem_set_unit]
  exact Iff.rfl

/-- THE ARRAY after the run: every output index lies in the block of the point that is its batch coordinate. -/
theorem final (c : Dev nD) :
    (dats m 0 c).arrAt 3 cfg0.N
      = attnOut (m ((c : Thread nD τ).loc main_arg0)) (m ((c : Thread nD τ).loc main_arg1)) (m ((c : Thread nD τ).loc main_arg2)) :=
  (dats m 0 c).arrAt_eq_of_cover 3 _ (fun t _ => flushed_eq m c t) fun i => by
    have hi0 : (i 0).val < 32 := (i 0).isLt
    have hi1 : (i 1).val < 8 := (i 1).isLt
    have hi2 : (i 2).val < 64 := (i 2).isLt
    obtain ⟨t, ht⟩ : ∃ t : Fin cfg0.N, t.val = (i 0).val := ⟨⟨(i 0).val, lt_of_lt_of_eq hi0 N_0.symm⟩, rfl⟩
    obtain ⟨-, -, -, -, -, -, -, -, -, e0, e1, e2⟩ := idx_facts t
    refine ⟨t, flush0_3 t, ?_⟩
    rw [mem_blk]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 8 ≤ (i 1).val ∧ (i 1).val < win0_3.index t (1 : Fin 3) * 8 + 8; omega
    | ⟨2, _⟩ => show win0_3.index t (2 : Fin 3) * 64 ≤ (i 2).val ∧ (i 2).val < win0_3.index t (2 : Fin 3) * 64 + 64; omega

/-- THE KERNEL'S RUN, READ: the result array at the layer's function of the arguments, the arguments unchanged. -/
theorem run : θ_run defs (onTc (τ := τ) (main (F := Ideal))) ⟨m, fun _ => 0, ρ⟩ fun r => ∀ c : Dev nD,
      r.2.mem ((c : Thread nD τ).loc main_v0)
        = attnOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Hand

end
-- ==== Proof.RefRead.lean ====
/-
  The reference read at an index, one quantity at a time: its scores (a division by the square root of 64, which
  is the product with 1/8), each token's shift, the exponentials, the weights, each slot's total weight, and the
  output as the sum over the tokens of the divided weights times the value entries; then, for arrays of real
  numbers, the whole result array as the layer's function.
-/
import proofs.«157608_j49452253446155_1_alg».proof.Proof.Gen.ReferenceIdeal.Read
import proofs.«157608_j49452253446155_1_alg».proof.Proof.AttnSpec
import proofs.«157608_j49452253446155_1_alg».proof.Proof.LibRowReduce
import Idealize.ShloMosaic.Lib.ValueIdx
import Idealize.ShloMosaic.PureOps.Ideal.Laws

noncomputable section

open scoped BigOperators

namespace Cert.ReferenceIdeal.Hand

open Cert.ReferenceIdeal Cert.ReferenceIdeal.Gen Cert.ReferenceIdeal.Read Idealize.ShloMosaic Idealize.ShloMosaic.ValueIdx
open Cert.Layer.Attend Cert.Layer.Softmax Cert.Layer.RowReduce Cert.Attn.Spec

variable (x0 x1 : (⟨S32x4096x64, .f32⟩ : BufTy).Contents (Elt Ideal)) (x2 : (⟨S32x8x64, .f32⟩ : BufTy).Contents (Elt Ideal))

/-! ## The generated index maps at an index given by coordinates -/

theorem lidx0 (b : Fin 32) (n : Fin 4096) (m : Fin 8) (k : Fin 64) : lidx_main_v0 (ix3 b n m) k = ix3 b n k :=
  funext fun a => Fin.ext (by match a with | ⟨0, _⟩ => rfl | ⟨1, _⟩ => rfl | ⟨2, _⟩ => rfl)
theorem ridx0 (b : Fin 32) (n : Fin 4096) (m : Fin 8) (k : Fin 64) : ridx_main_v0 (ix3 b n m) k = ix3 b m k :=
  funext fun a => Fin.ext (by match a with | ⟨0, _⟩ => rfl | ⟨1, _⟩ => rfl | ⟨2, _⟩ => rfl)
theorem idx78 (b : Fin 32) (n : Fin 4096) (m : Fin 8) : idx_main_v7 (idx_main_v8 (ix3 b n m)) = ix2 b n :=
  funext fun a => Fin.ext (by match a with | ⟨0, _⟩ => rfl | ⟨1, _⟩ => rfl)
theorem idx1213 (b : Fin 32) (n : Fin 4096) (m : Fin 8) : idx_main_v12 (idx_main_v13 (ix3 b n m)) = ix2 b n :=
  funext fun a => Fin.ext (by match a with | ⟨0, _⟩ => rfl | ⟨1, _⟩ => rfl)
theorem idx11 (b : Fin 32) (n : Fin 4096) (k : Fin 8) : idx_main_v11 (ix2 b n) k = ix3 b n k :=
  funext fun a => Fin.ext (by match a with | ⟨0, _⟩ => rfl | ⟨1, _⟩ => rfl | ⟨2, _⟩ => rfl)
theorem idx1819 (b : Fin 32) (n : Fin 4096) (m : Fin 8) : idx_main_v18 (idx_main_v19 (ix3 b n m)) = ix2 b m :=
  funext fun a => Fin.ext (by match a with | ⟨0, _⟩ => rfl | ⟨1, _⟩ => rfl)
theorem idx17 (b : Fin 32) (m : Fin 8) (k : Fin 4096) : idx_main_v17 (ix2 b m) k = ix3 b k m :=
  funext fun a => Fin.ext (by match a with | ⟨0, _⟩ => rfl | ⟨1, _⟩ => rfl | ⟨2, _⟩ => rfl)
theorem lidx21 (b : Fin 32) (m : Fin 8) (p : Fin 64) (k : Fin 4096) : lidx_main_v21 (ix3 b m p) k = ix3 b k m :=
  funext fun a => Fin.ext (by match a with | ⟨0, _⟩ => rfl | ⟨1, _⟩ => rfl | ⟨2, _⟩ => rfl)
theorem ridx21 (b : Fin 32) (m : Fin 8) (p : Fin 64) (k : Fin 4096) : ridx_main_v21 (ix3 b m p) k = ix3 b k p :=
  funext fun a => Fin.ext (by match a with | ⟨0, _⟩ => rfl | ⟨1, _⟩ => rfl | ⟨2, _⟩ => rfl)

/-! ## The stages -/

/-- The reference's scaled score: the dot product over the 64 features divided by the square root of 64. -/
theorem ref_score (b : Fin 32) (n : Fin 4096) (m : Fin 8) :
    val_main_v3 (F := Ideal) x0 x2 (ix3 b n m)
      = score (fun (n : Fin 4096) (d : Fin 64) => x0 (ix3 b n d)) (fun (m : Fin 8) (d : Fin 64) => x2 (ix3 b m d))
          (Ideal.ofBits .f32 0x3E000000#32) n m := by
  rw [val_main_v3_apply, val_main_v0_apply, val_main_v2_apply, val_main_v1_apply, val_main_cst_apply]
  show Ideal.div _ (Ideal.sqrt (Ideal.ofBits .f32 0x42800000#32)) = _
  rw [Cert.Attn.Consts.div_sqrt_64]
  simp only [lidx0, ridx0]
  rfl

/-- The scores of batch `b`, token by slot. -/
abbrev S (b : Fin 32) : Fin 4096 → Fin 8 → EReal := fun n m => val_main_v3 (F := Ideal) x0 x2 (ix3 b n m)

/-- Token `n`'s shift, at any slot. -/
theorem ref_shift (b : Fin 32) (n : Fin 4096) (m : Fin 8) :
    val_main_v8 (F := Ideal) x0 x2 (ix3 b n m) = rowMax (S x0 x2 b) n := by
  rw [val_main_v8_apply, val_main_v7_apply, val_main_v6_apply, val_main_v5_apply, val_main_cst_1_apply, idx78]
  unfold val_main_v4
  rw [hostMax3_apply _ _ _ (by decide) _ b n]
  show max (Ideal.ofBits .f32 0xFF800000#32) (Finset.fold max (Ideal.ofBits .f32 0xFF800000#32) _ _) = _
  rw [Cert.Attn.Consts.ofBits_neg_inf]
  rfl

/-- The exponential of a shifted score. -/
theorem ref_exp (b : Fin 32) (n : Fin 4096) (m : Fin 8) :
    val_main_v10 (F := Ideal) x0 x2 (ix3 b n m) = Ideal.exp (S x0 x2 b n m - rowMax (S x0 x2 b) n) := by
  rw [val_main_v10_apply, val_main_v9_apply, ref_shift]
  rfl

/-- The weight of token `n` on slot `m`. -/
theorem ref_weight (b : Fin 32) (n : Fin 4096) (m : Fin 8) :
    val_main_v16 (F := Ideal) x0 x2 (ix3 b n m) = weight (S x0 x2 b) (Ideal.ofBits .f32 0x322BCC77#32) n m := by
  rw [val_main_v16_apply, val_main_v14_apply, val_main_v15_apply, val_main_cst_3_apply, val_main_v13_apply,
    val_main_v12_apply, idx1213, val_main_v11_apply, val_main_cst_2_apply]
  simp only [idx11, ref_exp]
  show Ideal.div _ (Ideal.ofBits .f32 0x00000000#32 + _) + Ideal.ofBits .f32 0x322BCC77#32 = _
  rw [Ideal.ofBits_zero_f32, zero_add]
  rfl

/-- The weights of batch `b` are the layer's. -/
theorem ref_weights (b : Fin 32) :
    (fun (n : Fin 4096) (m : Fin 8) => val_main_v16 (F := Ideal) x0 x2 (ix3 b n m)) = weights x0 x2 b := by
  funext n m
  rw [ref_weight]
  refine congrArg (fun s => weight s _ n m) ?_
  funext n' m'
  exact ref_score x0 x2 b n' m'

/-- The reference's output entry: the sum over the tokens of each weight's share of the slot's total, times the
    value entry. -/
theorem ref_out (b : Fin 32) (m : Fin 8) (p : Fin 64) :
    val_main_v21 (F := Ideal) x0 x1 x2 (ix3 b m p) = attnAtShares x0 x1 x2 b m p := by
  rw [val_main_v21_apply]
  simp only [lidx21, ridx21, val_main_v20_apply, val_main_v19_apply, val_main_v18_apply, idx1819, val_main_v17_apply,
    val_main_cst_4_apply, idx17]
  show ∑ k : Fin 4096, Ideal.div (val_main_v16 (F := Ideal) x0 x2 (ix3 b k m))
      (Ideal.ofBits .f32 0x00000000#32 + ∑ k' : Fin 4096, val_main_v16 (F := Ideal) x0 x2 (ix3 b k' m)) * x1 (ix3 b k p) = _
  rw [Ideal.ofBits_zero_f32, zero_add]
  unfold attnAtShares
  rw [← ref_weights x0 x2 b]

/-- THE REFERENCE IS THE LAYER'S FUNCTION on arrays of real numbers. -/
theorem ref_eq (h0 : ∀ i, IsFin (x0 i)) (h1 : ∀ i, IsFin (x1 i)) (h2 : ∀ i, IsFin (x2 i)) :
    val_main_v21 (F := Ideal) x0 x1 x2 = attnOut x0 x1 x2 := by
  funext i
  obtain ⟨b, m, p, rfl⟩ : ∃ (b : Fin 32) (m : Fin 8) (p : Fin 64), i = ix3 b m p := ⟨i 0, i 1, i 2, eq_ix3 i⟩
  rw [ref_out, attnOut_ix3]
  exact attnAtShares_eq h0 h1 h2 b m p

end Cert.ReferenceIdeal.Hand

end
-- ==== Proof.PreFinite.lean ====
/-
  The precondition, read back: when `finite_inputs` of three arrays is true, every entry of each array is a real
  number.  The predicate is the conjunction of three `all`s of the comparison `|x| < +∞`; an extended real whose
  absolute value `max x (-x)` lies below the top is neither infinity.
-/
import proofs.«157608_j49452253446155_1_alg».proof.Proof.Gen.Pre_finite_inputs
import proofs.«157608_j49452253446155_1_alg».proof.Proof.LibSoftmax
import Idealize.ShloMosaic.Lib.ReduceAll
import Idealize.ShloMosaic.Lib.ValueIdx
import Idealize.ShloMosaic.PureOps.Ideal.Laws

noncomputable section

namespace Cert.Pre_finite_inputs.Hand

open Cert.Pre_finite_inputs Cert.Pre_finite_inputs.Gen Idealize.ShloMosaic Cert.Layer.Softmax

instance : Subsingleton S_.Idx := ⟨fun a b => funext fun d => d.elim0⟩

/-- An extended real whose absolute value compares below the word of plus infinity is a real number. -/
theorem isFin_of_cmp {x : EReal}
    (h : Ideal.cmp .olt (max x (-x)) (Ideal.ofBits .f32 0x7F800000#32) = 1#1) : IsFin x := by
  have htop : Ideal.ofBits .f32 0x7F800000#32 = ⊤ := by simp [Ideal.ofBits, Ideal.ieee]
  rw [htop] at h
  have hlt : max x (-x) < ⊤ := by
    by_contra hn
    simp [Ideal.cmp, hn] at h
  constructor
  · rintro rfl
    simp at hlt
  · rintro rfl
    simp at hlt

/-- The precondition gives the finiteness of every entry of the three arrays. -/
theorem finite_of_pre (a0 a1 : FVec Ideal S32x4096x64 .f32) (a2 : FVec Ideal S32x8x64 .f32)
    (h : fn (F := Ideal) a0 a1 a2 = fun _ => 1#1) :
    (∀ i, IsFin (a0 i)) ∧ (∀ i, IsFin (a1 i)) ∧ (∀ i, IsFin (a2 i)) := by
  have h' := congrFun h ValueIdx.ix0
  dsimp only [fn] at h'
  obtain ⟨h01, h2⟩ := IntOp.andi_eq_one.1 (show IntOp.andi _ _ = 1#1 from h')
  obtain ⟨h0, h1⟩ := IntOp.andi_eq_one.1 (show IntOp.andi _ _ = 1#1 from h01)
  refine ⟨fun i => isFin_of_cmp ?_, fun i => isFin_of_cmp ?_, fun i => isFin_of_cmp ?_⟩
  · exact Host.reduce_andi_all _ _ _ _ _ h0 i
  · exact Host.reduce_andi_all _ _ _ _ _ h1 i
  · exact Host.reduce_andi_all _ _ _ _ _ h2 i

end Cert.Pre_finite_inputs.Hand

end
-- ==== Proof.lean ====
/-
  The certificate of a slot-attention layer: a kernel that handles one batch entry per grid point against its
  plain reference, equal on the extended reals for inputs of real numbers.

  THE LAYER.  Keys and values are [32, 4096, 64] arrays, the query a [32, 8, 64] array.  In batch `b`, token `n`
  scores slot `m` by the dot product of key row (b, n) with query row (b, m), scaled; a token's scores are turned
  into weights by a softmax over the eight slots, and 1e-8 (its single-precision word) is added to every weight;
  slot `m`'s output row is the sum over the 4096 tokens of the value rows weighted by the slot's weights divided by
  their total over the tokens.

  THE TWO TEXTS differ in two places.  The kernel multiplies the dot products by 0.125 where the reference divides
  them by the square root of 64: the square root of 64 is 8, and dividing by 8 is multiplying by 1/8 on every
  extended real.  The kernel divides each slot's weighted sum of value rows once by the slot's total weight, where
  the reference divides every weight by the total before summing: for inputs of real numbers every weight is a
  positive real (an exponential over a sum of exponentials, plus a positive constant), so the total is a nonzero
  real and its reciprocal distributes over the sum of real terms.  This is the one place where the precondition —
  every input entry finite — is used.  The softmax itself is spelt the same way on both sides (the shift is the
  largest score, folded from minus infinity), the roundings to the matrix unit's input format are the identity on
  the extended reals, and a product into a zero accumulator, a lane sum and a host sum are plain finite sums.

  THE PROOF.  `Cert.Attn.Spec.attnOut` is the layer as one function of the three arrays (AttnSpec, over the
  algebra of LibAttend and LibSoftmax).  The kernel side: the body's stored value cut into stages and read at an
  index (KernelStages, KernelRead), then from the 32 blocks to the array over the generated blockwise value leg
  (KernelValue).  The reference side: the generated run and its read-at-an-index lemmas, one quantity at a time
  (RefRead).  The precondition read back as finiteness of every entry (PreFinite).  The frames are the generated
  ones; the idealization rewrote nothing, so there is nothing to preserve.
-/
import proofs.«157608_j49452253446155_1_alg».proof.Defs
import proofs.«157608_j49452253446155_1_alg».proof.Proof.Gen.Kernel
import proofs.«157608_j49452253446155_1_alg».proof.Proof.Gen.Kernel.Skeleton
import proofs.«157608_j49452253446155_1_alg».proof.Proof.Gen.Kernel.Launch
import proofs.«157608_j49452253446155_1_alg».proof.Proof.Gen.Kernel.Points
import proofs.«157608_j49452253446155_1_alg».proof.Proof.Gen.Kernel.Frame
import proofs.«157608_j49452253446155_1_alg».proof.Proof.Gen.KernelIdeal
import proofs.«157608_j49452253446155_1_alg».proof.Proof.Gen.KernelIdeal.Skeleton
import proofs.«157608_j49452253446155_1_alg».proof.Proof.Gen.KernelIdeal.Launch
import proofs.«157608_j49452253446155_1_alg».proof.Proof.Gen.KernelIdeal.Points
import proofs.«157608_j49452253446155_1_alg».proof.Proof.Gen.KernelIdeal.Frame
import proofs.«157608_j49452253446155_1_alg».proof.Proof.Gen.ReferenceIdeal
import proofs.«157608_j49452253446155_1_alg».proof.Proof.Gen.Pre_finite_inputs
import proofs.«157608_j49452253446155_1_alg».proof.Proof.Gen.KernelIdeal.Value
import proofs.«157608_j49452253446155_1_alg».proof.Proof.Gen.ReferenceIdeal.Run
import proofs.«157608_j49452253446155_1_alg».proof.Proof.Gen.ReferenceIdeal.Read
import proofs.«157608_j49452253446155_1_alg».proof.Proof.KernelValue
import proofs.«157608_j49452253446155_1_alg».proof.Proof.RefRead
import proofs.«157608_j49452253446155_1_alg».proof.Proof.PreFinite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, whose entries are real numbers, both programs end with the layer's
    function of the arguments in their result array: the kernel's by its run read block by block, the reference's by
    its run read index by index and the distribution of each slot's total weight over the sum. -/
theorem algebraic : Cert.algebraic_KernelIdeal_ReferenceIdeal := by
  intro m ρ m' ρ' hpre hagree
  refine ⟨fun c => Cert.Attn.Spec.attnOut (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Pre_finite_inputs.Hand.finite_of_pre _ _ _ (hpre c)
  rw [Cert.ReferenceIdeal.Read.val_main_v21_eq, (hagree c).1, (hagree c).2.1, (hagree c).2.2]
  exact Cert.ReferenceIdeal.Hand.ref_eq _ _ _ h0 h1 h2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
